-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x128 : Shape := ⟨2, ![4096, 128]⟩
abbrev S4096x2048 : Shape := ⟨2, ![4096, 2048]⟩
abbrev S4x2048x1024 : Shape := ⟨3, ![4, 2048, 1024]⟩
abbrev S4x2048 : Shape := ⟨2, ![4, 2048]⟩
abbrev S4x2048x128 : Shape := ⟨3, ![4, 2048, 128]⟩
abbrev S4x2048x2048 : Shape := ⟨3, ![4, 2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S4x2048x128 : S_.BroadcastsInDim S4x2048x128 (![] : Fin 0 → Fin S4x2048x128.rank)
  reducesTo_S4x2048x128_S_d0_1_2 : S4x2048x128.ReducesTo [0, 1, 2] S_
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part2 {F : FTy → Type} [FloatOps F] (main_arg7 : FVec F S4x2048 .f32) (main_arg8 : FVec F S4x2048x2048 .f32) (main_arg9 : FVec F S4x2048 .f32) (main_v33 : IVec S_ 1) : IVec S_ 1 :=
  let main_v34 : FVec F S4x2048 .f32 := Host.absf main_arg7
  let main_cst_12 : FVec F S_ .f32 := constant S_ .f32 0x7F800000#32
  let main_v35 : FVec F S4x2048 .f32 := broadcastInDim S4x2048 ![] bcast_S_S4x2048 main_cst_12
  let main_v36 : IVec S4x2048 1 := cmpf .olt main_v34 main_v35
  let main_c_13 : IVec S_ 1 := constantI S_ 1 1#1
  let main_v37 : IVec S_ 1 := (fun x v => Host.reduce IntOp.andi x v reducesTo_S4x2048_S_d0_1 h_S_) main_v36 main_c_13
  let main_v38 : IVec S_ 1 := andi main_v33 main_v37
  let main_v39 : FVec F S4x2048x2048 .f32 := Host.absf main_arg8
  let main_cst_14 : FVec F S_ .f32 := constant S_ .f32 0x7F800000#32
  let main_v40 : FVec F S4x2048x2048 .f32 := broadcastInDim S4x2048x2048 ![] bcast_S_S4x2048x2048 main_cst_14
  let main_v41 : IVec S4x2048x2048 1 := cmpf .olt main_v39 main_v40
  let main_c_15 : IVec S_ 1 := constantI S_ 1 1#1
  let main_v42 : IVec S_ 1 := (fun x v => Host.reduce IntOp.andi x v reducesTo_S4x2048x2048_S_d0_1_2 h_S_) main_v41 main_c_15
  let main_v43 : IVec S_ 1 := andi main_v38 main_v42
  let main_v44 : FVec F S4x2048 .f32 := Host.absf main_arg9
  let main_cst_16 : FVec F S_ .f32 := constant S_ .f32 0x7F800000#32
  let main_v45 : FVec F S4x2048 .f32 := broadcastInDim S4x2048 ![] bcast_S_S4x2048 main_cst_16
  let main_v46 : IVec S4x2048 1 := cmpf .olt main_v44 main_v45
  let main_c_17 : IVec S_ 1 := constantI S_ 1 1#1
  let main_v47 : IVec S_ 1 := (fun x v => Host.reduce IntOp.andi x v reducesTo_S4x2048_S_d0_1 h_S_) main_v46 main_c_17
  let main_v48 : IVec S_ 1 := andi main_v43 main_v47
  main_v48

def fn_part1 {F : FTy → Type} [FloatOps F] (main_arg4 : FVec F S4x2048x1024 .f32) (main_arg5 : FVec F S4x2048 .f32) (main_arg6 : FVec F S4x2048x128 .f32) (main_arg7 : FVec F S4x2048 .f32) (main_arg8 : FVec F S4x2048x2048 .f32) (main_arg9 : FVec F S4x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  let main_v24 : FVec F S4x2048 .f32 := Host.absf main_arg5
  let main_cst_8 : FVec F S_ .f32 := constant S_ .f32 0x7F800000#32
  let main_v25 : FVec F S4x2048 .f32 := broadcastInDim S4x2048 ![] bcast_S_S4x2048 main_cst_8
  let main_v26 : IVec S4x2048 1 := cmpf .olt main_v24 main_v25
  let main_c_9 : IVec S_ 1 := constantI S_ 1 1#1
  let main_v27 : IVec S_ 1 := (fun x v => Host.reduce IntOp.andi x v reducesTo_S4x2048_S_d0_1 h_S_) main_v26 main_c_9
  let main_v28 : IVec S_ 1 := andi main_v23 main_v27
  let main_v29 : FVec F S4x2048x128 .f32 := Host.absf main_arg6
  let main_cst_10 : FVec F S_ .f32 := constant S_ .f32 0x7F800000#32
  let main_v30 : FVec F S4x2048x128 .f32 := broadcastInDim S4x2048x128 ![] bcast_S_S4x2048x128 main_cst_10
  let main_v31 : IVec S4x2048x128 1 := cmpf .olt main_v29 main_v30
  let main_c_11 : IVec S_ 1 := constantI S_ 1 1#1
  let main_v32 : IVec S_ 1 := (fun x v => Host.reduce IntOp.andi x v reducesTo_S4x2048x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x128 .f32) (main_arg2 : FVec F S4096x2048 .f32) (main_arg3 : FVec F S4096x2048 .f32) (main_arg4 : FVec F S4x2048x1024 .f32) (main_arg5 : FVec F S4x2048 .f32) (main_arg6 : FVec F S4x2048x128 .f32) (main_arg7 : FVec F S4x2048 .f32) (main_arg8 : FVec F S4x2048x2048 .f32) (main_arg9 : FVec F S4x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096x128 : Shape := ⟨2, ![4096, 128]⟩
abbrev S4096x2048 : Shape := ⟨2, ![4096, 2048]⟩
abbrev S4x2048x1024 : Shape := ⟨3, ![4, 2048, 1024]⟩
abbrev S4x2048 : Shape := ⟨2, ![4, 2048]⟩
abbrev S4x2048x128 : Shape := ⟨3, ![4, 2048, 128]⟩
abbrev S4x2048x2048 : Shape := ⟨3, ![4, 2048, 2048]⟩
abbrev S512x1024 : Shape := ⟨2, ![512, 1024]⟩
abbrev S512x128 : Shape := ⟨2, ![512, 128]⟩
abbrev S512x2048 : Shape := ⟨2, ![512, 2048]⟩
abbrev S512x512 : Shape := ⟨2, ![512, 512]⟩
abbrev S4x512x1024 : Shape := ⟨3, ![4, 512, 1024]⟩
abbrev S4x512x128 : Shape := ⟨3, ![4, 512, 128]⟩
abbrev S4x512x2048 : Shape := ⟨3, ![4, 512, 2048]⟩
abbrev S4x512 : Shape := ⟨2, ![4, 512]⟩
abbrev S1x512x1024 : Shape := ⟨3, ![1, 512, 1024]⟩
abbrev S1x512x128 : Shape := ⟨3, ![1, 512, 128]⟩
abbrev S1x512x2048 : Shape := ⟨3, ![1, 512, 2048]⟩
abbrev S1x512 : Shape := ⟨2, ![1, 512]⟩
abbrev S512 : Shape := ⟨1, ![512]⟩

abbrev nBuf : Space → Nat
  | .hbm => 20
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x2048, .f32⟩
  | .hbm, ⟨3, _⟩ => ⟨S4096x2048, .f32⟩
  | .hbm, ⟨4, _⟩ => ⟨S4x2048x1024, .f32⟩
  | .hbm, ⟨5, _⟩ => ⟨S4x2048, .f32⟩
  | .hbm, ⟨6, _⟩ => ⟨S4x2048x128, .f32⟩
  | .hbm, ⟨7, _⟩ => ⟨S4x2048, .f32⟩
  | .hbm, ⟨8, _⟩ => ⟨S4x2048x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4096x1024, .bf16⟩
  | .hbm, ⟨13, _⟩ => ⟨S4096x128, .bf16⟩
  | .hbm, ⟨14, _⟩ => ⟨S4096x2048, .bf16⟩
  | .hbm, ⟨15, _⟩ => ⟨S4x2048x1024, .bf16⟩
  | .hbm, ⟨16, _⟩ => ⟨S4x2048x128, .bf16⟩
  | .hbm, ⟨17, _⟩ => ⟨S4x2048x2048, .bf16⟩
  | .hbm, ⟨18, _⟩ => ⟨S4096x2048, .f32⟩
  | .hbm, ⟨19, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S512x2048, .bf16⟩
  | .local _ .vmem, ⟨5, _⟩ => ⟨S512x2048, .bf16⟩
  | .local _ .vmem, ⟨6, _⟩ => ⟨S512x512, .f32⟩
  | .local _ .vmem, ⟨7, _⟩ => ⟨S512x512, .f32⟩
  | .local _ .vmem, ⟨8, _⟩ => ⟨S4x512x1024, .bf16⟩
  | .local _ .vmem, ⟨9, _⟩ => ⟨S4x512x1024, .bf16⟩
  | .local _ .vmem, ⟨10, _⟩ => ⟨S4x512x128, .bf16⟩
  | .local _ .vmem, ⟨11, _⟩ => ⟨S4x512x128, .bf16⟩
  | .local _ .vmem, ⟨12, _⟩ => ⟨S4x512x2048, .bf16⟩
  | .local _ .vmem, ⟨13, _⟩ => ⟨S4x512x2048, .bf16⟩
  | .local _ .vmem, ⟨14, _⟩ => ⟨S4x512, .f32⟩
  | .local _ .vmem, ⟨15, _⟩ => ⟨S4x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  inb_S4x512x128_S1x512x128_0_0_0 : ∀ a, (![0, 0, 0] : Fin 3 → Nat) a + S1x512x128.size a ≤ S4x512x128.size a
  h_S1x512x128 : 0 < S1x512x128.numel
  shapeCasts_S1x512x128_S512x128 : S1x512x128.ShapeCasts S512x128
  inb_S4x512x2048_S1x512x2048_0_0_0 : ∀ a, (![0, 0, 0] : Fin 3 → Nat) a + S1x512x2048.size a ≤ S4x512x2048.size a
  h_S1x512x2048 : 0 < S1x512x2048.numel
  shapeCasts_S1x512x2048_S512x2048 : S1x512x2048.ShapeCasts S512x2048
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S4x512x1024_S1x512x1024_1_0_0 : ∀ a, (![1, 0, 0] : Fin 3 → Nat) a + S1x512x1024.size a ≤ S4x512x1024.size a
  inb_S4x512x128_S1x512x128_1_0_0 : ∀ a, (![1, 0, 0] : Fin 3 → Nat) a + S1x512x128.size a ≤ S4x512x128.size a
  inb_S4x512x2048_S1x512x2048_1_0_0 : ∀ a, (![1, 0, 0] : Fin 3 → Nat) a + S1x512x2048.size a ≤ S4x512x2048.size a
  inb_S4x512_S1x512_1_0 : ∀ a, (![1, 0] : Fin 2 → Nat) a + S1x512.size a ≤ S4x512.size a
  inb_S4x512x1024_S1x512x1024_2_0_0 : ∀ a, (![2, 0, 0] : Fin 3 → Nat) a + S1x512x1024.size a ≤ S4x512x1024.size a
  inb_S4x512x128_S1x512x128_2_0_0 : ∀ a, (![2, 0, 0] : Fin 3 → Nat) a + S1x512x128.size a ≤ S4x512x128.size a
  inb_S4x512x2048_S1x512x2048_2_0_0 : ∀ a, (![2, 0, 0] : Fin 3 → Nat) a + S1x512x2048.size a ≤ S4x512x2048.size a
  inb_S4x512_S1x512_2_0 : ∀ a, (![2, 0] : Fin 2 → Nat) a + S1x512.size a ≤ S4x512.size a
  inb_S4x512x1024_S1x512x1024_3_0_0 : ∀ a, (![3, 0, 0] : Fin 3 → Nat) a + S1x512x1024.size a ≤ S4x512x1024.size a
  inb_S4x512x128_S1x512x128_3_0_0 : ∀ a, (![3, 0, 0] : Fin 3 → Nat) a + S1x512x128.size a ≤ S4x512x128.size a
  inb_S4x512x2048_S1x512x2048_3_0_0 : ∀ a, (![3, 0, 0] : Fin 3 → Nat) a + S1x512x2048.size a ≤ S4x512x2048.size a
  inb_S4x512_S1x512_3_0 : ∀ a, (![3, 0] : Fin 2 → Nat) a + S1x512.size a ≤ S4x512.size a
  dot_S512x1024_S512x1024_S512x512_1_1_0_0_n_n_wf : DotDims.WF S512x1024 S512x1024 S512x512 [1] [1] [0] [0] [] []
  dot_S512x128_S512x128_S512x512_1_1_0_0_n_n_wf : DotDims.WF S512x128 S512x128 S512x512 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .bf16 = 32 ∨ (Rect.block (s := S4096x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .f32 = 32 ∨ (Rect.block (s := S4096x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x2048x1024.size a
  hwx0_4 : ∀ i : grid0.Coords, EltTy.bits .bf16 = 32 ∨ (Rect.block (s := S4x2048x1024) S4x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x128.size a ≤ S4x2048x128.size a
  hwx0_5 : ∀ i : grid0.Coords, EltTy.bits .bf16 = 32 ∨ (Rect.block (s := S4x2048x128) S4x512x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x2048.size a ≤ S4x2048x2048.size a
  hwx0_6 : ∀ i : grid0.Coords, EltTy.bits .bf16 = 32 ∨ (Rect.block (s := S4x2048x2048) S4x512x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x512.size a ≤ S4x2048.size a
  hwx0_7 : ∀ i : grid0.Coords, EltTy.bits .f32 = 32 ∨ (Rect.block (s := S4x2048) S4x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x2048.size a
  hwx0_8 : ∀ i : grid0.Coords, EltTy.bits .f32 = 32 ∨ (Rect.block (s := S4096x2048) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x2048.size a
  hwx0_9 : ∀ i : grid0.Coords, EltTy.bits .f32 = 32 ∨ (Rect.block (s := S4096x2048) S512x512.size (cc0_transform_9 i) (hinb0_9 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4x512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S4x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x128 : Shape := ⟨2, ![4096, 128]⟩
abbrev S4096x2048 : Shape := ⟨2, ![4096, 2048]⟩
abbrev S4x2048x1024 : Shape := ⟨3, ![4, 2048, 1024]⟩
abbrev S4x2048 : Shape := ⟨2, ![4, 2048]⟩
abbrev S4x2048x128 : Shape := ⟨3, ![4, 2048, 128]⟩
abbrev S4x2048x2048 : Shape := ⟨3, ![4, 2048, 2048]⟩
abbrev S4x2048x4096 : Shape := ⟨3, ![4, 2048, 4096]⟩
abbrev S4x4096x2048 : Shape := ⟨3, ![4, 4096, 2048]⟩
abbrev S4x1x2048 : Shape := ⟨3, ![4, 1, 2048]⟩
abbrev S1x4096x2048 : Shape := ⟨3, ![1, 4096, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x2048, .f32⟩
  | .hbm, ⟨3, _⟩ => ⟨S4096x2048, .f32⟩
  | .hbm, ⟨4, _⟩ => ⟨S4x2048x1024, .f32⟩
  | .hbm, ⟨5, _⟩ => ⟨S4x2048, .f32⟩
  | .hbm, ⟨6, _⟩ => ⟨S4x2048x128, .f32⟩
  | .hbm, ⟨7, _⟩ => ⟨S4x2048, .f32⟩
  | .hbm, ⟨8, _⟩ => ⟨S4x2048x2048, .f32⟩
  | .hbm, ⟨9, _⟩ => ⟨S4x2048, .f32⟩
  | .hbm, ⟨10, _⟩ => ⟨S4x2048x4096, .f32⟩
  | .hbm, ⟨11, _⟩ => ⟨S4x4096x2048, .f32⟩
  | .hbm, ⟨12, _⟩ => ⟨S4x2048x4096, .f32⟩
  | .hbm, ⟨13, _⟩ => ⟨S4x4096x2048, .f32⟩
  | .hbm, ⟨14, _⟩ => ⟨S4x4096x2048, .f32⟩
  | .hbm, ⟨15, _⟩ => ⟨S4x2048x4096, .f32⟩
  | .hbm, ⟨16, _⟩ => ⟨S4x4096x2048, .f32⟩
  | .hbm, ⟨17, _⟩ => ⟨S4x4096x2048, .f32⟩
  | .hbm, ⟨18, _⟩ => ⟨S4x2048, .f32⟩
  | .hbm, ⟨19, _⟩ => ⟨S4x2048, .f32⟩
  | .hbm, ⟨20, _⟩ => ⟨S4x1x2048, .f32⟩
  | .hbm, ⟨21, _⟩ => ⟨S4x4096x2048, .f32⟩
  | .hbm, ⟨22, _⟩ => ⟨S4x4096x2048, .f32⟩
  | .hbm, ⟨23, _⟩ => ⟨S1x4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S1x4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S1x4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S1x4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  transposes_S4x2048x4096_S4x4096x2048_0_2_1 : S4x2048x4096.Transposes [0, 2, 1] S4x4096x2048
  bcast_S4x2048_S4x1x2048_0_2 : S4x2048.BroadcastsInDim S4x1x2048 (![0, 2] : Fin 2 → Fin S4x1x2048.rank)
  bcast_S4x1x2048_S4x4096x2048_0_1_2 : S4x1x2048.BroadcastsInDim S4x4096x2048 (![0, 1, 2] : Fin 3 → Fin S4x4096x2048.rank)
  slices_S4x4096x2048_S1x4096x2048_0_0_0 : S4x4096x2048.Slices ![0, 0, 0] S1x4096x2048
  shapeCasts_S1x4096x2048_S4096x2048 : S1x4096x2048.ShapeCasts S4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  dot_S4x2048x1024_S4096x1024_S4x2048x4096_2_1_01_0_n_n_wf : DotDims.WF S4x2048x1024 S4096x1024 S4x2048x4096 [2] [1] [0, 1] [0] [] []
  dot_S4x2048x128_S4096x128_S4x2048x4096_2_1_01_0_n_n_wf : DotDims.WF S4x2048x128 S4096x128 S4x2048x4096 [2] [1] [0, 1] [0] [] []
  dot_S4x2048x2048_S4096x2048_S4x2048x4096_2_1_01_0_n_n_wf : DotDims.WF S4x2048x2048 S4096x2048 S4x2048x4096 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x128_S4096x128_S4x2048x4096_2_1_01_0_n_n : DotDims S4x2048x128 S4096x128 S4x2048x4096 where
  lhsContracting := [2]
  rhsContracting := [1]
  lhsNonContracting := [0, 1]
  rhsNonContracting := [0]
  lhsBatch := []
  rhsBatch := []
  wf := dot_S4x2048x128_S4096x128_S4x2048x4096_2_1_01_0_n_n_wf
def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.CellSpec.lean ====
/-
  One step of a tree-LSTM cell over a batch, as plain functions on the extended reals.

  For a batch row `b` and a memory unit `n`, gate `g` (0 = input, 1 = forget, 2 = output, 3 = update) has the
  pre-activation
      z g b n = ((Σ_k word[b,k]·Ww[g,n,k] + Σ_k tag[b,k]·Wt[g,n,k]) + Σ_k hprev[b,k]·Wh[g,n,k])
                  + ((bw[g,n] + bt[g,n]) + bh[g,n]),
  the new cell state is  c b n = σ(z 0 b n)·tanh(z 3 b n) + σ(z 1 b n)·cprev[b,n]  and the new hidden state is
  h b n = σ(z 2 b n)·tanh(c b n), with σ the logistic function 1 / (1 + e^(-x)) and tanh both extended to ±∞ by
  their limits. The grouping of the sums is the one both programs use, so no law beyond commutativity of the
  product is needed to meet either of them, and nothing here asks the entries to be finite.
-/
import Idealize.ShloMosaic.PureOps.Ideal
import Idealize.ShloMosaic.Lib.ValueIdx

noncomputable section

namespace Cert.TreeCell

open Idealize.ShloMosaic Idealize.ShloMosaic.ValueIdx

/-- A rank-2 array of extended reals. -/
abbrev Arr2 (a b : Nat) : Type := (⟨2, ![a, b]⟩ : Shape).Idx → EReal
/-- A rank-3 array of extended reals. -/
abbrev Arr3 (a b c : Nat) : Type := (⟨3, ![a, b, c]⟩ : Shape).Idx → EReal

/-- The pre-activation of gate `g` at batch row `b` and memory unit `n`: the three projections summed left to
    right, then the three biases summed left to right. -/
def gate (word : Arr2 4096 1024) (tag : Arr2 4096 128) (hprev : Arr2 4096 2048)
    (Ww : Arr3 4 2048 1024) (bw : Arr2 4 2048) (Wt : Arr3 4 2048 128) (bt : Arr2 4 2048) (Wh : Arr3 4 2048 2048) (bh : Arr2 4 2048)
    (g : Fin 4) (b : Fin 4096) (n : Fin 2048) : EReal :=
  ((∑ k : Fin 1024, word (ix2 b k) * Ww (ix3 g n k) + ∑ k : Fin 128, tag (ix2 b k) * Wt (ix3 g n k))
      + ∑ k : Fin 2048, hprev (ix2 b k) * Wh (ix3 g n k))
    + ((bw (ix2 g n) + bt (ix2 g n)) + bh (ix2 g n))

/-- The combination of four gate values and the previous cell state into the new cell state. -/
def mixC (zi zf zu cp : EReal) : EReal := Ideal.logistic zi * Ideal.tanh zu + Ideal.logistic zf * cp

/-- The new hidden state from the output gate's value and the new cell state. -/
def mixH (zo cnew : EReal) : EReal := Ideal.logistic zo * Ideal.tanh cnew

/-- The new cell state at `(b, n)`. -/
def cellC (word : Arr2 4096 1024) (tag : Arr2 4096 128) (hprev cprev : Arr2 4096 2048)
    (Ww : Arr3 4 2048 1024) (bw : Arr2 4 2048) (Wt : Arr3 4 2048 128) (bt : Arr2 4 2048) (Wh : Arr3 4 2048 2048) (bh : Arr2 4 2048)
    (b : Fin 4096) (n : Fin 2048) : EReal :=
  mixC (gate word tag hprev Ww bw Wt bt Wh bh 0 b n) (gate word tag hprev Ww bw Wt bt Wh bh 1 b n) (gate word tag hprev Ww bw Wt bt Wh bh 3 b n) (cprev (ix2 b n))

/-- The new hidden state at `(b, n)`. -/
def cellH (word : Arr2 4096 1024) (tag : Arr2 4096 128) (hprev cprev : Arr2 4096 2048)
    (Ww : Arr3 4 2048 1024) (bw : Arr2 4 2048) (Wt : Arr3 4 2048 128) (bt : Arr2 4 2048) (Wh : Arr3 4 2048 2048) (bh : Arr2 4 2048)
    (b : Fin 4096) (n : Fin 2048) : EReal :=
  mixH (gate word tag hprev Ww bw Wt bt Wh bh 2 b n) (cellC word tag hprev cprev Ww bw Wt bt Wh bh b n)

/-- The new cell state as a whole array. -/
def arrC (word : Arr2 4096 1024) (tag : Arr2 4096 128) (hprev cprev : Arr2 4096 2048)
    (Ww : Arr3 4 2048 1024) (bw : Arr2 4 2048) (Wt : Arr3 4 2048 128) (bt : Arr2 4 2048) (Wh : Arr3 4 2048 2048) (bh : Arr2 4 2048) : Arr2 4096 2048 :=
  fun i => cellC word tag hprev cprev Ww bw Wt bt Wh bh (i 0) (i 1)

/-- The new hidden state as a whole array. -/
def arrH (word : Arr2 4096 1024) (tag : Arr2 4096 128) (hprev cprev : Arr2 4096 2048)
    (Ww : Arr3 4 2048 1024) (bw : Arr2 4 2048) (Wt : Arr3 4 2048 128) (bt : Arr2 4 2048) (Wh : Arr3 4 2048 2048) (bh : Arr2 4 2048) : Arr2 4096 2048 :=
  fun i => cellH word tag hprev cprev Ww bw Wt bt Wh bh (i 0) (i 1)

end Cert.TreeCell

end
-- ==== Proof.RefCell.lean ====
/-
  The reference's two results, read entry by entry, are the cell step of `CellSpec`.

  The reference stacks the four gates: each projection is one product `W[g,n,·] · x[b,·]` laid out `[g, n, b]` and
  transposed to `[g, b, n]`; the three projections are added left to right, the summed bias is broadcast over
  the batch axis and added; gate `g` is slice `g` of the stack, squeezed. The logistic function is spelt
  `1 / (1 + exp (-z))`, which on the extended reals is the logistic function itself, and the factors of each
  product appear in the other order, which commutativity of the product repairs.
-/
import proofs.«143592_j38689065402499_1_alg».proof.Proof.Gen.ReferenceIdeal.Read
import proofs.«143592_j38689065402499_1_alg».proof.Proof.CellSpec

noncomputable section

namespace Cert.ReferenceIdeal.CellValue

open Cert.ReferenceIdeal Cert.ReferenceIdeal.Read Cert.TreeCell
open Idealize.ShloMosaic Idealize.ShloMosaic.ValueIdx

/-- The word `1.0` is the real number one. -/
theorem one_f32 : Ideal.ofBits .f32 0x3F800000#32 = 1 := by
  simp [Ideal.ofBits, Ideal.ieee, -EReal.coe_mul]; norm_num

/-! ## Where each stage reads its operand -/

theorem lhs_word (g : Fin 4) (b : Fin 4096) (n : Fin 2048) (k : Fin 1024) :
    lidx_main_v0 (idx_main_v1 (ix3 g b n)) k = ix3 g n k :=
  funext fun a => Fin.ext (by match a with | ⟨0, _⟩ => rfl | ⟨1, _⟩ => rfl | ⟨2, _⟩ => rfl)
theorem rhs_word (g : Fin 4) (b : Fin 4096) (n : Fin 2048) (k : Fin 1024) :
    ridx_main_v0 (idx_main_v1 (ix3 g b n)) k = ix2 b k :=
  funext fun a => Fin.ext (by match a with | ⟨0, _⟩ => rfl | ⟨1, _⟩ => rfl)
theorem lhs_tag (g : Fin 4) (b : Fin 4096) (n : Fin 2048) (k : Fin 128) :
    lidx_main_v2 (idx_main_v3 (ix3 g b n)) k = ix3 g n k :=
  funext fun a => Fin.ext (by match a with | ⟨0, _⟩ => rfl | ⟨1, _⟩ => rfl | ⟨2, _⟩ => rfl)
theorem rhs_tag (g : Fin 4) (b : Fin 4096) (n : Fin 2048) (k : Fin 128) :
    ridx_main_v2 (idx_main_v3 (ix3 g b n)) k = ix2 b k :=
  funext fun a => Fin.ext (by match a with | ⟨0, _⟩ => rfl | ⟨1, _⟩ => rfl)
theorem lhs_hid (g : Fin 4) (b : Fin 4096) (n : Fin 2048) (k : Fin 2048) :
    lidx_main_v5 (idx_main_v6 (ix3 g b n)) k = ix3 g n k :=
  funext fun a => Fin.ext (by match a with | ⟨0, _⟩ => rfl | ⟨1, _⟩ => rfl | ⟨2, _⟩ => rfl)
theorem rhs_hid (g : Fin 4) (b : Fin 4096) (n : Fin 2048) (k : Fin 2048) :
    ridx_main_v5 (idx_main_v6 (ix3 g b n)) k = ix2 b k :=
  funext fun a => Fin.ext (by match a with | ⟨0, _⟩ => rfl | ⟨1, _⟩ => rfl)
theorem bias_idx (g : Fin 4) (b : Fin 4096) (n : Fin 2048) :
    idx_main_v10 (idx_main_v11 (ix3 g b n)) = ix2 g n :=
  funext fun a => Fin.ext (by match a with | ⟨0, _⟩ => rfl | ⟨1, _⟩ => rfl)

/-- Slice `0` of the stacked gates, squeezed: entry `(b, n)` is entry `(0, b, n)` of the stack. -/
theorem slice0 (b : Fin 4096) (n : Fin 2048) : idx_main_v13 (idx_main_v14 (ix2 b n)) = ix3 (0 : Fin 4) b n := by
  have hb := b.isLt
  have hn := n.isLt
  funext a
  apply Fin.ext
  match a with
  | ⟨0, _⟩ => rfl
  | ⟨1, _⟩ => show (b.val * 2048 + n.val) / 2048 % 4096 = b.val; omega
  | ⟨2, _⟩ => show (b.val * 2048 + n.val) % 2048 = n.val; omega

/-- Slice `1` of the stacked gates, squeezed: entry `(b, n)` is entry `(1, b, n)` of the stack. -/
theorem slice1 (b : Fin 4096) (n : Fin 2048) : idx_main_v21 (idx_main_v22 (ix2 b n)) = ix3 (1 : Fin 4) b n := by
  have hb := b.isLt
  have hn := n.isLt
  funext a
  apply Fin.ext
  match a with
  | ⟨0, _⟩ => rfl
  | ⟨1, _⟩ => show (b.val * 2048 + n.val) / 2048 % 4096 = b.val; omega
  | ⟨2, _⟩ => show (b.val * 2048 + n.val) % 2048 = n.val; omega

/-- Slice `2` of the stacked gates, squeezed: entry `(b, n)` is entry `(2, b, n)` of the stack. -/
theorem slice2 (b : Fin 4096) (n : Fin 2048) : idx_main_v29 (idx_main_v30 (ix2 b n)) = ix3 (2 : Fin 4) b n := by
  have hb := b.isLt
  have hn := n.isLt
  funext a
  apply Fin.ext
  match a with
  | ⟨0, _⟩ => rfl
  | ⟨1, _⟩ => show (b.val * 2048 + n.val) / 2048 % 4096 = b.val; omega
  | ⟨2, _⟩ => show (b.val * 2048 + n.val) % 2048 = n.val; omega

/-- Slice `3` of the stacked gates, squeezed: entry `(b, n)` is entry `(3, b, n)` of the stack. -/
theorem slice3 (b : Fin 4096) (n : Fin 2048) : idx_main_v37 (idx_main_v38 (ix2 b n)) = ix3 (3 : Fin 4) b n := by
  have hb := b.isLt
  have hn := n.isLt
  funext a
  apply Fin.ext
  match a with
  | ⟨0, _⟩ => rfl
  | ⟨1, _⟩ => show (b.val * 2048 + n.val) / 2048 % 4096 = b.val; omega
  | ⟨2, _⟩ => show (b.val * 2048 + n.val) % 2048 = n.val; omega

/-! ## The stacked gates -/

/-- Entry `(g, b, n)` of the stacked pre-activations is gate `g`'s pre-activation at `(b, n)`. -/
theorem stack_eq (x0 : (⟨S4096x1024, .f32⟩ : BufTy).Contents (Elt Ideal)) (x1 : (⟨S4096x128, .f32⟩ : BufTy).Contents (Elt Ideal))
    (x2 : (⟨S4096x2048, .f32⟩ : BufTy).Contents (Elt Ideal)) (x4 : (⟨S4x2048x1024, .f32⟩ : BufTy).Contents (Elt Ideal))
    (x5 : (⟨S4x2048, .f32⟩ : BufTy).Contents (Elt Ideal)) (x6 : (⟨S4x2048x128, .f32⟩ : BufTy).Contents (Elt Ideal))
    (x7 : (⟨S4x2048, .f32⟩ : BufTy).Contents (Elt Ideal)) (x8 : (⟨S4x2048x2048, .f32⟩ : BufTy).Contents (Elt Ideal))
    (x9 : (⟨S4x2048, .f32⟩ : BufTy).Contents (Elt Ideal))
    (g : Fin 4) (b : Fin 4096) (n : Fin 2048) :
    val_main_v12 (F := Ideal) x0 x1 x2 x4 x5 x6 x7 x8 x9 (ix3 g b n) = gate x0 x1 x2 x4 x5 x6 x7 x8 x9 g b n := by
  rw [val_main_v12_apply, val_main_v7_apply, val_main_v4_apply, val_main_v1_apply, val_main_v0_apply, val_main_v3_apply,
    val_main_v2_apply, val_main_v6_apply, val_main_v5_apply, val_main_v11_apply, val_main_v10_apply, val_main_v9_apply,
    val_main_v8_apply, bias_idx]
  simp only [lhs_word, rhs_word, lhs_tag, rhs_tag, lhs_hid, rhs_hid, Ideal.addf_def]
  unfold gate
  rw [Finset.sum_congr rfl fun (k : Fin 1024) _ => mul_comm (x4 (ix3 g n k)) (x0 (ix2 b k)),
    Finset.sum_congr rfl fun (k : Fin 128) _ => mul_comm (x6 (ix3 g n k)) (x1 (ix2 b k)),
    Finset.sum_congr rfl fun (k : Fin 2048) _ => mul_comm (x8 (ix3 g n k)) (x2 (ix2 b k))]

/-! ## The two results -/

/-- The reference's second result, the new cell state, entry by entry. -/
theorem cell_apply (x0 : (⟨S4096x1024, .f32⟩ : BufTy).Contents (Elt Ideal)) (x1 : (⟨S4096x128, .f32⟩ : BufTy).Contents (Elt Ideal))
    (x2 x3 : (⟨S4096x2048, .f32⟩ : BufTy).Contents (Elt Ideal)) (x4 : (⟨S4x2048x1024, .f32⟩ : BufTy).Contents (Elt Ideal))
    (x5 : (⟨S4x2048, .f32⟩ : BufTy).Contents (Elt Ideal)) (x6 : (⟨S4x2048x128, .f32⟩ : BufTy).Contents (Elt Ideal))
    (x7 : (⟨S4x2048, .f32⟩ : BufTy).Contents (Elt Ideal)) (x8 : (⟨S4x2048x2048, .f32⟩ : BufTy).Contents (Elt Ideal))
    (x9 : (⟨S4x2048, .f32⟩ : BufTy).Contents (Elt Ideal))
    (b : Fin 4096) (n : Fin 2048) :
    val_main_v42 (F := Ideal) x0 x1 x2 x3 x4 x5 x6 x7 x8 x9 (ix2 b n) = cellC x0 x1 x2 x3 x4 x5 x6 x7 x8 x9 b n := by
  rw [val_main_v42_apply, val_main_v40_apply, val_main_v20_apply, val_main_v19_apply, val_main_cst_0_apply, val_main_v18_apply,
    val_main_v17_apply, val_main_cst_apply, val_main_v16_apply, val_main_v15_apply, val_main_v14_apply, val_main_v13_apply,
    val_main_v39_apply, val_main_v38_apply, val_main_v37_apply, val_main_v41_apply, val_main_v28_apply, val_main_v27_apply,
    val_main_cst_2_apply, val_main_v26_apply, val_main_v25_apply, val_main_cst_1_apply, val_main_v24_apply, val_main_v23_apply,
    val_main_v22_apply, val_main_v21_apply, slice0, slice1, slice3, stack_eq, stack_eq, stack_eq]
  unfold cellC mixC Ideal.logistic
  simp only [Ideal.ofBits_def, one_f32, Ideal.addf_def, Ideal.mulf_def, Ideal.hostDivf_def, Ideal.hostUnary_exp_def,
    Ideal.hostUnary_tanh_def, Ideal.hostNegf_def, Ideal.negf_def]

/-- The reference's first result, the new hidden state, entry by entry. -/
theorem hidden_apply (x0 : (⟨S4096x1024, .f32⟩ : BufTy).Contents (Elt Ideal)) (x1 : (⟨S4096x128, .f32⟩ : BufTy).Contents (Elt Ideal))
    (x2 x3 : (⟨S4096x2048, .f32⟩ : BufTy).Contents (Elt Ideal)) (x4 : (⟨S4x2048x1024, .f32⟩ : BufTy).Contents (Elt Ideal))
    (x5 : (⟨S4x2048, .f32⟩ : BufTy).Contents (Elt Ideal)) (x6 : (⟨S4x2048x128, .f32⟩ : BufTy).Contents (Elt Ideal))
    (x7 : (⟨S4x2048, .f32⟩ : BufTy).Contents (Elt Ideal)) (x8 : (⟨S4x2048x2048, .f32⟩ : BufTy).Contents (Elt Ideal))
    (x9 : (⟨S4x2048, .f32⟩ : BufTy).Contents (Elt Ideal))
    (b : Fin 4096) (n : Fin 2048) :
    val_main_v44 (F := Ideal) x0 x1 x2 x3 x4 x5 x6 x7 x8 x9 (ix2 b n) = cellH x0 x1 x2 x3 x4 x5 x6 x7 x8 x9 b n := by
  rw [val_main_v44_apply, val_main_v43_apply, cell_apply, val_main_v36_apply, val_main_v35_apply, val_main_cst_4_apply,
    val_main_v34_apply, val_main_v33_apply, val_main_cst_3_apply, val_main_v32_apply, val_main_v31_apply, val_main_v30_apply,
    val_main_v29_apply, slice2, stack_eq]
  unfold cellH mixH Ideal.logistic
  simp only [Ideal.ofBits_def, one_f32, Ideal.addf_def, Ideal.mulf_def, Ideal.hostDivf_def, Ideal.hostUnary_exp_def,
    Ideal.hostUnary_tanh_def, Ideal.hostNegf_def, Ideal.negf_def]

/-- The new cell state as a whole array. -/
theorem cell_eq (x0 : (⟨S4096x1024, .f32⟩ : BufTy).Contents (Elt Ideal)) (x1 : (⟨S4096x128, .f32⟩ : BufTy).Contents (Elt Ideal))
    (x2 x3 : (⟨S4096x2048, .f32⟩ : BufTy).Contents (Elt Ideal)) (x4 : (⟨S4x2048x1024, .f32⟩ : BufTy).Contents (Elt Ideal))
    (x5 : (⟨S4x2048, .f32⟩ : BufTy).Contents (Elt Ideal)) (x6 : (⟨S4x2048x128, .f32⟩ : BufTy).Contents (Elt Ideal))
    (x7 : (⟨S4x2048, .f32⟩ : BufTy).Contents (Elt Ideal)) (x8 : (⟨S4x2048x2048, .f32⟩ : BufTy).Contents (Elt Ideal))
    (x9 : (⟨S4x2048, .f32⟩ : BufTy).Contents (Elt Ideal)) :
    val_main_v42 (F := Ideal) x0 x1 x2 x3 x4 x5 x6 x7 x8 x9 = arrC x0 x1 x2 x3 x4 x5 x6 x7 x8 x9 := by
  funext i
  obtain ⟨b, n, rfl⟩ : ∃ (b : Fin 4096) (n : Fin 2048), i = ix2 b n := ⟨i 0, i 1, eq_ix2 i⟩
  exact cell_apply x0 x1 x2 x3 x4 x5 x6 x7 x8 x9 b n

/-- The new hidden state as a whole array. -/
theorem hidden_eq (x0 : (⟨S4096x1024, .f32⟩ : BufTy).Contents (Elt Ideal)) (x1 : (⟨S4096x128, .f32⟩ : BufTy).Contents (Elt Ideal))
    (x2 x3 : (⟨S4096x2048, .f32⟩ : BufTy).Contents (Elt Ideal)) (x4 : (⟨S4x2048x1024, .f32⟩ : BufTy).Contents (Elt Ideal))
    (x5 : (⟨S4x2048, .f32⟩ : BufTy).Contents (Elt Ideal)) (x6 : (⟨S4x2048x128, .f32⟩ : BufTy).Contents (Elt Ideal))
    (x7 : (⟨S4x2048, .f32⟩ : BufTy).Contents (Elt Ideal)) (x8 : (⟨S4x2048x2048, .f32⟩ : BufTy).Contents (Elt Ideal))
    (x9 : (⟨S4x2048, .f32⟩ : BufTy).Contents (Elt Ideal)) :
    val_main_v44 (F := Ideal) x0 x1 x2 x3 x4 x5 x6 x7 x8 x9 = arrH x0 x1 x2 x3 x4 x5 x6 x7 x8 x9 := by
  funext i
  obtain ⟨b, n, rfl⟩ : ∃ (b : Fin 4096) (n : Fin 2048), i = ix2 b n := ⟨i 0, i 1, eq_ix2 i⟩
  exact hidden_apply x0 x1 x2 x3 x4 x5 x6 x7 x8 x9 b n

end Cert.ReferenceIdeal.CellValue

end
-- ==== Proof.BlockProducts.lean ====
/-
  The three matrix products of the kernel's body, read at an entry.

  Each gate's pre-activation is built from three products of a `[512, K]` block of activations with the
  transpose of a `[512, K]` block of weights (K = 1024, 128, 2048), accumulated into the zero block. On the
  extended reals entry `(r, c)` of such a product is the plain sum over `k` of `l[r,k] · w[c,k]`.
-/
import proofs.«143592_j38689065402499_1_alg».proof.Proof.Gen.KernelIdeal
import Idealize.ShloMosaic.Lib.ValueIdx
import Idealize.ShloMosaic.PureOps.Ideal.Laws

noncomputable section

namespace Cert.KernelIdeal.CellBlock

open Cert.KernelIdeal Cert.KernelIdeal.Gen Cert.KernelIdeal.Facts₀
open Idealize.ShloMosaic Idealize.ShloMosaic.ValueIdx

theorem lhs1024_row (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem rhs1024_row (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

/-- A `[512, 1024] × [512, 1024]ᵀ` product into the zero block, read at `(r, c)`: row `r` of the left against row `c` of
    the right. -/
theorem mm1024_apply (l : FVec Ideal S512x1024 .bf16) (w : FVec Ideal S512x1024 .bf16) (r c : Fin 512) :
    matmul dot_S512x1024_S512x1024_S512x512_1_1_0_0_n_n none l w (constant (F := Ideal) S512x512 .f32 0x00000000#32) (ix2 r c)
      = ∑ k : Fin 1024, l (ix2 r k) * w (ix2 c k) := by
  refine (Ideal.matmul_constant_zero_apply dot_S512x1024_S512x1024_S512x512_1_1_0_0_n_n none l w (ix2 r c)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r c) ((ValueIdx.contrEquiv1 dot_S512x1024_S512x1024_S512x512_1_1_0_0_n_n 1024 rfl rfl).symm k) = ix2 r k :=
    funext fun a => Fin.ext (by
      match a with
      | ⟨0, _⟩ => exact lhs1024_row _ _
      | ⟨1, _⟩ => exact (dot_S512x1024_S512x1024_S512x512_1_1_0_0_n_n.lhsIdx_val_of_single rfl _ _).trans hk)
  have er : dot_S512x1024_S512x1024_S512x512_1_1_0_0_n_n.rhsIdx (ix2 r c) ((ValueIdx.contrEquiv1 dot_S512x1024_S512x1024_S512x512_1_1_0_0_n_n 1024 rfl rfl).symm k) = ix2 c k :=
    funext fun a => Fin.ext (by
      match a with
      | ⟨0, _⟩ => exact rhs1024_row _ _
      | ⟨1, _⟩ => exact (dot_S512x1024_S512x1024_S512x512_1_1_0_0_n_n.rhsIdx_val_of_single rfl _ _).trans hk)
  rw [el, er]

theorem lhs128_row (i : S512x512.Idx) (q : dot_S512x128_S512x128_S512x512_1_1_0_0_n_n.contr.Idx) : (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide),
    dif_pos (show (0 : Fin S512x128.rank) ∈ dot_S512x128_S512x128_S512x512_1_1_0_0_n_n.lhsNonContracting by decide)]
  rfl
theorem rhs128_row (i : S512x512.Idx) (q : dot_S512x128_S512x128_S512x512_1_1_0_0_n_n.contr.Idx) : (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide),
    dif_pos (show (0 : Fin S512x128.rank) ∈ dot_S512x128_S512x128_S512x512_1_1_0_0_n_n.rhsNonContracting by decide)]
  rfl

/-- A `[512, 128] × [512, 128]ᵀ` product into the zero block, read at `(r, c)`: row `r` of the left against row `c` of
    the right. -/
theorem mm128_apply (l : FVec Ideal S512x128 .bf16) (w : FVec Ideal S512x128 .bf16) (r c : Fin 512) :
    matmul dot_S512x128_S512x128_S512x512_1_1_0_0_n_n none l w (constant (F := Ideal) S512x512 .f32 0x00000000#32) (ix2 r c)
      = ∑ k : Fin 128, l (ix2 r k) * w (ix2 c k) := by
  refine (Ideal.matmul_constant_zero_apply dot_S512x128_S512x128_S512x512_1_1_0_0_n_n none l w (ix2 r c)).trans ?_
  rw [← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 r c) ((ValueIdx.contrEquiv1 dot_S512x128_S512x128_S512x512_1_1_0_0_n_n 128 rfl rfl).symm k) = ix2 r k :=
    funext fun a => Fin.ext (by
      match a with
      | ⟨0, _⟩ => exact lhs128_row _ _
      | ⟨1, _⟩ => exact (dot_S512x128_S512x128_S512x512_1_1_0_0_n_n.lhsIdx_val_of_single rfl _ _).trans hk)
  have er : dot_S512x128_S512x128_S512x512_1_1_0_0_n_n.rhsIdx (ix2 r c) ((ValueIdx.contrEquiv1 dot_S512x128_S512x128_S512x512_1_1_0_0_n_n 128 rfl rfl).symm k) = ix2 c k :=
    funext fun a => Fin.ext (by
      match a with
      | ⟨0, _⟩ => exact rhs128_row _ _
      | ⟨1, _⟩ => exact (dot_S512x128_S512x128_S512x512_1_1_0_0_n_n.rhsIdx_val_of_single rfl _ _).trans hk)
  rw [el, er]

theorem lhs2048_row (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem rhs2048_row (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl

/-- A `[512, 2048] × [512, 2048]ᵀ` product into the zero block, read at `(r, c)`: row `r` of the left against row `c` of
    the right. -/
theorem mm2048_apply (l : FVec Ideal S512x2048 .bf16) (w : FVec Ideal S512x2048 .bf16) (r c : Fin 512) :
    matmul dot_S512x2048_S512x2048_S512x512_1_1_0_0_n_n none l w (constant (F := Ideal) S512x512 .f32 0x00000000#32) (ix2 r c)
      = ∑ k : Fin 2048, l (ix2 r k) * w (ix2 c k) := by
  refine (Ideal.matmul_constant_zero_apply dot_S512x2048_S512x2048_S512x512_1_1_0_0_n_n none l w (ix2 r c)).trans ?_
  rw [← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 r c) ((ValueIdx.contrEquiv1 dot_S512x2048_S512x2048_S512x512_1_1_0_0_n_n 2048 rfl rfl).symm k) = ix2 r k :=
    funext fun a => Fin.ext (by
      match a with
      | ⟨0, _⟩ => exact lhs2048_row _ _
      | ⟨1, _⟩ => exact (dot_S512x2048_S512x2048_S512x512_1_1_0_0_n_n.lhsIdx_val_of_single rfl _ _).trans hk)
  have er : dot_S512x2048_S512x2048_S512x512_1_1_0_0_n_n.rhsIdx (ix2 r c) ((ValueIdx.contrEquiv1 dot_S512x2048_S512x2048_S512x512_1_1_0_0_n_n 2048 rfl rfl).symm k) = ix2 c k :=
    funext fun a => Fin.ext (by
      match a with
      | ⟨0, _⟩ => exact rhs2048_row _ _
      | ⟨1, _⟩ => exact (dot_S512x2048_S512x2048_S512x512_1_1_0_0_n_n.rhsIdx_val_of_single rfl _ _).trans hk)
  rw [el, er]

end Cert.KernelIdeal.CellBlock

end
-- ==== Proof.GateBlock.lean ====
/-
  What one grid point's body leaves in its two output blocks, entry by entry.

  A point holds a `[512, K]` block of each activation array (K = 1024, 128, 2048), a `[4, 512, K]` block of each
  weight array (all four gates, 512 memory units) and a `[4, 512]` block of the summed bias. For gate `g` the body
  takes slab `g` of each weight block, drops its unit axis, multiplies the activation block by its transpose
  (three products, added left to right) and adds row `g` of the bias block to every row. So entry `(r, c)` of
  gate `g`'s pre-activation is
      ((Σ_k x0[r,k]·x4[g,c,k] + Σ_k x1[r,k]·x5[g,c,k]) + Σ_k x2[r,k]·x6[g,c,k]) + x7[g,c],
  and the two stored blocks combine the four gates and the block of the previous cell state pointwise.
-/
import proofs.«143592_j38689065402499_1_alg».proof.Proof.Gen.KernelIdeal.Frame
import proofs.«143592_j38689065402499_1_alg».proof.Proof.BlockProducts
import proofs.«143592_j38689065402499_1_alg».proof.Proof.CellSpec
import Idealize.ShloMosaic.Lib.ValueLayout
import Idealize.ShloMosaic.Lib.Pipeline.Value

noncomputable section

namespace Cert.KernelIdeal.CellBlock

open Cert.KernelIdeal Cert.KernelIdeal.Gen Cert.TreeCell
open Idealize.ShloMosaic Idealize.ShloMosaic.ValueIdx

theorem hz2 : (![0, 0] : Fin 2 → Nat) = fun _ => 0 := funext fun a => by fin_cases a <;> rfl

/-! ## One gate as a block -/

/-- One gate's pre-activation block from the three activation blocks, the gate's slab of each weight block and
    its row of the bias block, in the body's own operations. -/
def gateVec (a0 : FVec Ideal S512x1024 .bf16) (a1 : FVec Ideal S512x128 .bf16) (a2 : FVec Ideal S512x2048 .bf16)
    (w4 : FVec Ideal S1x512x1024 .bf16) (w5 : FVec Ideal S1x512x128 .bf16) (w6 : FVec Ideal S1x512x2048 .bf16)
    (b7 : FVec Ideal S1x512 .f32) : FVec Ideal S512x512 .f32 :=
  addf (addf (addf
      (matmul dot_S512x1024_S512x1024_S512x512_1_1_0_0_n_n none a0 (shapeCast S512x1024 w4 shapeCasts_S1x512x1024_S512x1024) (constant (F := Ideal) S512x512 .f32 0x00000000#32))
      (matmul dot_S512x128_S512x128_S512x512_1_1_0_0_n_n none a1 (shapeCast S512x128 w5 shapeCasts_S1x512x128_S512x128) (constant (F := Ideal) S512x512 .f32 0x00000000#32)))
      (matmul dot_S512x2048_S512x2048_S512x512_1_1_0_0_n_n none a2 (shapeCast S512x2048 w6 shapeCasts_S1x512x2048_S512x2048) (constant (F := Ideal) S512x512 .f32 0x00000000#32)))
    (broadcastTo S512x512 (shapeCast S1x512 (shapeCast S512 b7 shapeCasts_S1x512_S512) shapeCasts_S512_S1x512)
      broadcasts_S1x512_S512x512)

/-- That block at `(r, c)`: the three sums over the contracted axis, then the bias of column `c`. -/
theorem gateVec_apply (a0 : FVec Ideal S512x1024 .bf16) (a1 : FVec Ideal S512x128 .bf16) (a2 : FVec Ideal S512x2048 .bf16)
    (w4 : FVec Ideal S1x512x1024 .bf16) (w5 : FVec Ideal S1x512x128 .bf16) (w6 : FVec Ideal S1x512x2048 .bf16)
    (b7 : FVec Ideal S1x512 .f32) (r c : Fin 512) :
    gateVec a0 a1 a2 w4 w5 w6 b7 (ix2 r c)
      = ((∑ k : Fin 1024, a0 (ix2 r k) * w4 (ix3 (0 : Fin 1) c k) + ∑ k : Fin 128, a1 (ix2 r k) * w5 (ix3 (0 : Fin 1) c k))
          + ∑ k : Fin 2048, a2 (ix2 r k) * w6 (ix3 (0 : Fin 1) c k)) + b7 (ix2 (0 : Fin 1) c) := by
  unfold gateVec
  rw [addf_apply, addf_apply, addf_apply, mm1024_apply, mm128_apply, mm2048_apply,
    ValueIdx.broadcastTo_1b_ab_apply, ValueIdx.shapeCast_a_1a_apply, ValueIdx.shapeCast_1a_a_apply]
  simp only [ValueIdx.shapeCast_1ab_ab_apply]

/-! ## The body's payloads are built from such blocks -/

/-- The input gate's payload. -/
theorem gate0_eq (a0 : FVec Ideal S512x1024 .bf16) (a1 : FVec Ideal S512x128 .bf16) (a2 : FVec Ideal S512x2048 .bf16)
    (w4 : FVec Ideal S1x512x1024 .bf16) (w5 : FVec Ideal S1x512x128 .bf16) (w6 : FVec Ideal S1x512x2048 .bf16)
    (b7 : FVec Ideal S1x512 .f32) :
    k0_pay6 (F := Ideal) a0 a1 a2 w4 w5 w6 b7 = gateVec a0 a1 a2 w4 w5 w6 b7 := by
  unfold k0_pay6 k0_pay3 k0_pay4 k0_pay5 gateVec
  simp only [shapeCast_self]

/-- The forget gate's payload. -/
theorem gate1_eq (a0 : FVec Ideal S512x1024 .bf16) (a1 : FVec Ideal S512x128 .bf16) (a2 : FVec Ideal S512x2048 .bf16)
    (w4 : FVec Ideal S1x512x1024 .bf16) (w5 : FVec Ideal S1x512x128 .bf16) (w6 : FVec Ideal S1x512x2048 .bf16)
    (b7 : FVec Ideal S1x512 .f32) :
    k0_pay9 (F := Ideal) (k0_pay4 a1) (k0_pay5 a2) (k0_pay7 a0 w4) (k0_pay8 w5) (constant (F := Ideal) S512x512 .f32 0x00000000#32) w6 b7
      = gateVec a0 a1 a2 w4 w5 w6 b7 := by
  unfold k0_pay9 k0_pay7 k0_pay8 k0_pay3 k0_pay4 k0_pay5 gateVec
  simp only [shapeCast_self]

/-- The output gate's payload. -/
theorem gate2_eq (a0 : FVec Ideal S512x1024 .bf16) (a1 : FVec Ideal S512x128 .bf16) (a2 : FVec Ideal S512x2048 .bf16)
    (w4 : FVec Ideal S1x512x1024 .bf16) (w5 : FVec Ideal S1x512x128 .bf16) (w6 : FVec Ideal S1x512x2048 .bf16)
    (b7 : FVec Ideal S1x512 .f32) :
    k0_pay10 (F := Ideal) (k0_pay3 a0) (k0_pay4 a1) (k0_pay5 a2) w4 w5 w6 b7 = gateVec a0 a1 a2 w4 w5 w6 b7 := by
  unfold k0_pay10 k0_pay3 k0_pay4 k0_pay5 gateVec
  simp only [shapeCast_self]

/-- The stored cell state: the update gate's block is built in place, then the four blocks are combined
    pointwise. -/
theorem payC_eq (a0 : FVec Ideal S512x1024 .bf16) (a1 : FVec Ideal S512x128 .bf16) (a2 : FVec Ideal S512x2048 .bf16)
    (w4 : FVec Ideal S1x512x1024 .bf16) (w5 : FVec Ideal S1x512x128 .bf16) (w6 : FVec Ideal S1x512x2048 .bf16)
    (b7 : FVec Ideal S1x512 .f32) (cp zi zf : FVec Ideal S512x512 .f32) :
    k0_pay1 (F := Ideal) (k0_pay4 a1) (k0_pay5 a2) cp zi zf (k0_pay11 (k0_pay3 a0) w4) (k0_pay12 w5) (constant (F := Ideal) S512x512 .f32 0x00000000#32) w6 b7
      = addf (mulf (logistic zi) (tanh (gateVec a0 a1 a2 w4 w5 w6 b7))) (mulf (logistic zf) cp) := by
  unfold k0_pay1 k0_pay11 k0_pay12 k0_pay3 k0_pay4 k0_pay5 gateVec
  simp only [shapeCast_self]

/-! ## The blocks read through the body's rectangles -/

theorem ldWw0 (x : Vec Ideal S4x512x1024 .bf16) (c : Fin 512) (k : Fin 1024) :
    View.ld x r0_4 (ix3 (0 : Fin 1) c k) = x (ix3 (0 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWt0 (x : Vec Ideal S4x512x128 .bf16) (c : Fin 512) (k : Fin 128) :
    View.ld x r0_5 (ix3 (0 : Fin 1) c k) = x (ix3 (0 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWh0 (x : Vec Ideal S4x512x2048 .bf16) (c : Fin 512) (k : Fin 2048) :
    View.ld x r0_6 (ix3 (0 : Fin 1) c k) = x (ix3 (0 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldB0 (x : Vec Ideal S4x512 .f32) (c : Fin 512) :
    View.ld x r0_7 (ix2 (0 : Fin 1) c) = x (ix2 (0 : Fin 4) c) :=
  congrArg x (funext fun a => Fin.ext (by
    match a with
    | ⟨0, _⟩ => rfl
    | ⟨1, _⟩ => show 0 + 1 * c.val = c.val; omega))
theorem ldWw1 (x : Vec Ideal S4x512x1024 .bf16) (c : Fin 512) (k : Fin 1024) :
    View.ld x r0_8 (ix3 (0 : Fin 1) c k) = x (ix3 (1 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWt1 (x : Vec Ideal S4x512x128 .bf16) (c : Fin 512) (k : Fin 128) :
    View.ld x r0_9 (ix3 (0 : Fin 1) c k) = x (ix3 (1 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWh1 (x : Vec Ideal S4x512x2048 .bf16) (c : Fin 512) (k : Fin 2048) :
    View.ld x r0_10 (ix3 (0 : Fin 1) c k) = x (ix3 (1 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldB1 (x : Vec Ideal S4x512 .f32) (c : Fin 512) :
    View.ld x r0_11 (ix2 (0 : Fin 1) c) = x (ix2 (1 : Fin 4) c) :=
  congrArg x (funext fun a => Fin.ext (by
    match a with
    | ⟨0, _⟩ => rfl
    | ⟨1, _⟩ => show 0 + 1 * c.val = c.val; omega))
theorem ldWw2 (x : Vec Ideal S4x512x1024 .bf16) (c : Fin 512) (k : Fin 1024) :
    View.ld x r0_12 (ix3 (0 : Fin 1) c k) = x (ix3 (2 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWt2 (x : Vec Ideal S4x512x128 .bf16) (c : Fin 512) (k : Fin 128) :
    View.ld x r0_13 (ix3 (0 : Fin 1) c k) = x (ix3 (2 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWh2 (x : Vec Ideal S4x512x2048 .bf16) (c : Fin 512) (k : Fin 2048) :
    View.ld x r0_14 (ix3 (0 : Fin 1) c k) = x (ix3 (2 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldB2 (x : Vec Ideal S4x512 .f32) (c : Fin 512) :
    View.ld x r0_15 (ix2 (0 : Fin 1) c) = x (ix2 (2 : Fin 4) c) :=
  congrArg x (funext fun a => Fin.ext (by
    match a with
    | ⟨0, _⟩ => rfl
    | ⟨1, _⟩ => show 0 + 1 * c.val = c.val; omega))
theorem ldWw3 (x : Vec Ideal S4x512x1024 .bf16) (c : Fin 512) (k : Fin 1024) :
    View.ld x r0_16 (ix3 (0 : Fin 1) c k) = x (ix3 (3 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWt3 (x : Vec Ideal S4x512x128 .bf16) (c : Fin 512) (k : Fin 128) :
    View.ld x r0_17 (ix3 (0 : Fin 1) c k) = x (ix3 (3 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldWh3 (x : Vec Ideal S4x512x2048 .bf16) (c : Fin 512) (k : Fin 2048) :
    View.ld x r0_18 (ix3 (0 : Fin 1) c k) = x (ix3 (3 : Fin 4) c k) :=
  congrArg x (funext fun a => Fin.ext (by
    match a with
    | ⟨0, _⟩ => rfl
    | ⟨1, _⟩ => show 0 + 1 * c.val = c.val; omega
    | ⟨2, _⟩ => show 0 + 1 * k.val = k.val; omega))
theorem ldB3 (x : Vec Ideal S4x512 .f32) (c : Fin 512) :
    View.ld x r0_19 (ix2 (0 : Fin 1) c) = x (ix2 (3 : Fin 4) c) :=
  congrArg x (funext fun a => Fin.ext (by
    match a with
    | ⟨0, _⟩ => rfl
    | ⟨1, _⟩ => show 0 + 1 * c.val = c.val; omega))

/-- Gate `g`'s pre-activation at `(r, c)` of a point, from the point's blocks. -/
def gateAt (x0 : FVec Ideal S512x1024 .bf16) (x1 : FVec Ideal S512x128 .bf16) (x2 : FVec Ideal S512x2048 .bf16)
    (x4 : FVec Ideal S4x512x1024 .bf16) (x5 : FVec Ideal S4x512x128 .bf16) (x6 : FVec Ideal S4x512x2048 .bf16)
    (x7 : FVec Ideal S4x512 .f32) (g : Fin 4) (r c : Fin 512) : EReal :=
  ((∑ k : Fin 1024, x0 (ix2 r k) * x4 (ix3 g c k) + ∑ k : Fin 128, x1 (ix2 r k) * x5 (ix3 g c k))
      + ∑ k : Fin 2048, x2 (ix2 r k) * x6 (ix3 g c k))
    + x7 (ix2 g c)

/-- Gate 0 of a point, read through the point's blocks. -/
theorem gateVec_blk0 (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (r c : Fin 512) :
    gateVec (View.ld x0 r0_0) (View.ld x1 r0_1) (View.ld x2 r0_2) (View.ld x4 r0_4) (View.ld x5 r0_5)
      (View.ld x6 r0_6) (View.ld x7 r0_7) (ix2 r c) = gateAt x0 x1 x2 x4 x5 x6 x7 0 r c := by
  refine (gateVec_apply _ _ _ _ _ _ _ r c).trans ?_
  unfold gateAt
  rw [View.ld_unit_zero (S := S512x1024) hz2, View.ld_unit_zero (S := S512x128) hz2, View.ld_unit_zero (S := S512x2048) hz2]
  refine congrArg₂ (· + ·) (congrArg₂ (· + ·) (congrArg₂ (· + ·) ?_ ?_) ?_) (ldB0 x7 c)
  · exact Finset.sum_congr rfl fun k _ => congrArg (x0 (ix2 r k) * ·) (ldWw0 x4 c k)
  · exact Finset.sum_congr rfl fun k _ => congrArg (x1 (ix2 r k) * ·) (ldWt0 x5 c k)
  · exact Finset.sum_congr rfl fun k _ => congrArg (x2 (ix2 r k) * ·) (ldWh0 x6 c k)

/-- Gate 1 of a point, read through the point's blocks. -/
theorem gateVec_blk1 (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (r c : Fin 512) :
    gateVec (View.ld x0 r0_0) (View.ld x1 r0_1) (View.ld x2 r0_2) (View.ld x4 r0_8) (View.ld x5 r0_9)
      (View.ld x6 r0_10) (View.ld x7 r0_11) (ix2 r c) = gateAt x0 x1 x2 x4 x5 x6 x7 1 r c := by
  refine (gateVec_apply _ _ _ _ _ _ _ r c).trans ?_
  unfold gateAt
  rw [View.ld_unit_zero (S := S512x1024) hz2, View.ld_unit_zero (S := S512x128) hz2, View.ld_unit_zero (S := S512x2048) hz2]
  refine congrArg₂ (· + ·) (congrArg₂ (· + ·) (congrArg₂ (· + ·) ?_ ?_) ?_) (ldB1 x7 c)
  · exact Finset.sum_congr rfl fun k _ => congrArg (x0 (ix2 r k) * ·) (ldWw1 x4 c k)
  · exact Finset.sum_congr rfl fun k _ => congrArg (x1 (ix2 r k) * ·) (ldWt1 x5 c k)
  · exact Finset.sum_congr rfl fun k _ => congrArg (x2 (ix2 r k) * ·) (ldWh1 x6 c k)

/-- Gate 2 of a point, read through the point's blocks. -/
theorem gateVec_blk2 (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (r c : Fin 512) :
    gateVec (View.ld x0 r0_0) (View.ld x1 r0_1) (View.ld x2 r0_2) (View.ld x4 r0_12) (View.ld x5 r0_13)
      (View.ld x6 r0_14) (View.ld x7 r0_15) (ix2 r c) = gateAt x0 x1 x2 x4 x5 x6 x7 2 r c := by
  refine (gateVec_apply _ _ _ _ _ _ _ r c).trans ?_
  unfold gateAt
  rw [View.ld_unit_zero (S := S512x1024) hz2, View.ld_unit_zero (S := S512x128) hz2, View.ld_unit_zero (S := S512x2048) hz2]
  refine congrArg₂ (· + ·) (congrArg₂ (· + ·) (congrArg₂ (· + ·) ?_ ?_) ?_) (ldB2 x7 c)
  · exact Finset.sum_congr rfl fun k _ => congrArg (x0 (ix2 r k) * ·) (ldWw2 x4 c k)
  · exact Finset.sum_congr rfl fun k _ => congrArg (x1 (ix2 r k) * ·) (ldWt2 x5 c k)
  · exact Finset.sum_congr rfl fun k _ => congrArg (x2 (ix2 r k) * ·) (ldWh2 x6 c k)

/-- Gate 3 of a point, read through the point's blocks. -/
theorem gateVec_blk3 (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (r c : Fin 512) :
    gateVec (View.ld x0 r0_0) (View.ld x1 r0_1) (View.ld x2 r0_2) (View.ld x4 r0_16) (View.ld x5 r0_17)
      (View.ld x6 r0_18) (View.ld x7 r0_19) (ix2 r c) = gateAt x0 x1 x2 x4 x5 x6 x7 3 r c := by
  refine (gateVec_apply _ _ _ _ _ _ _ r c).trans ?_
  unfold gateAt
  rw [View.ld_unit_zero (S := S512x1024) hz2, View.ld_unit_zero (S := S512x128) hz2, View.ld_unit_zero (S := S512x2048) hz2]
  refine congrArg₂ (· + ·) (congrArg₂ (· + ·) (congrArg₂ (· + ·) ?_ ?_) ?_) (ldB3 x7 c)
  · exact Finset.sum_congr rfl fun k _ => congrArg (x0 (ix2 r k) * ·) (ldWw3 x4 c k)
  · exact Finset.sum_congr rfl fun k _ => congrArg (x1 (ix2 r k) * ·) (ldWt3 x5 c k)
  · exact Finset.sum_congr rfl fun k _ => congrArg (x2 (ix2 r k) * ·) (ldWh3 x6 c k)

/-! ## The two stored blocks -/

/-- The block of the new cell state a point stores, at `(r, c)`. -/
theorem blockC_apply (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (x3 : Vec Ideal S512x512 .f32) (r c : Fin 512) :
    out0_9 (F := Ideal) x0 x1 x2 x3 x4 x5 x6 x7 (ix2 r c)
      = mixC (gateAt x0 x1 x2 x4 x5 x6 x7 0 r c) (gateAt x0 x1 x2 x4 x5 x6 x7 1 r c) (gateAt x0 x1 x2 x4 x5 x6 x7 3 r c)
          (x3 (ix2 r c)) := by
  unfold out0_9
  rw [View.canon_unit_zero hz2, gate0_eq, gate1_eq, payC_eq]
  show mixC (gateVec _ _ _ _ _ _ _ (ix2 r c)) (gateVec _ _ _ _ _ _ _ (ix2 r c)) (gateVec _ _ _ _ _ _ _ (ix2 r c))
    (View.ld x3 r0_3 (ix2 r c)) = _
  rw [gateVec_blk0, gateVec_blk1, gateVec_blk3, View.ld_unit_zero (S := S512x512) hz2]

/-- The block of the new hidden state a point stores, at `(r, c)`. -/
theorem blockH_apply (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (x3 : Vec Ideal S512x512 .f32) (r c : Fin 512) :
    out0_8 (F := Ideal) x0 x1 x2 x3 x4 x5 x6 x7 (ix2 r c)
      = mixH (gateAt x0 x1 x2 x4 x5 x6 x7 2 r c)
          (mixC (gateAt x0 x1 x2 x4 x5 x6 x7 0 r c) (gateAt x0 x1 x2 x4 x5 x6 x7 1 r c) (gateAt x0 x1 x2 x4 x5 x6 x7 3 r c)
            (x3 (ix2 r c))) := by
  unfold out0_8
  rw [View.canon_unit_zero hz2]
  unfold k0_pay2
  rw [gate0_eq, gate1_eq, gate2_eq, payC_eq]
  show mixH (gateVec _ _ _ _ _ _ _ (ix2 r c)) (mixC (gateVec _ _ _ _ _ _ _ (ix2 r c)) (gateVec _ _ _ _ _ _ _ (ix2 r c))
    (gateVec _ _ _ _ _ _ _ (ix2 r c)) (View.ld x3 r0_3 (ix2 r c))) = _
  rw [gateVec_blk0, gateVec_blk1, gateVec_blk2, gateVec_blk3, View.ld_unit_zero (S := S512x512) hz2]

/-- The same at an index of the block, by its coordinates. -/
theorem blockC_at (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (x3 : Vec Ideal S512x512 .f32) (y : S512x512.Idx) :
    out0_9 (F := Ideal) x0 x1 x2 x3 x4 x5 x6 x7 y
      = mixC (gateAt x0 x1 x2 x4 x5 x6 x7 0 (y 0) (y 1)) (gateAt x0 x1 x2 x4 x5 x6 x7 1 (y 0) (y 1))
          (gateAt x0 x1 x2 x4 x5 x6 x7 3 (y 0) (y 1)) (x3 y) := by
  obtain ⟨r, c, rfl⟩ : ∃ (r c : Fin 512), y = ix2 r c := ⟨y 0, y 1, eq_ix2 y⟩
  exact blockC_apply x0 x1 x2 x4 x5 x6 x7 x3 r c

theorem blockH_at (x0 : Vec Ideal S512x1024 .bf16) (x1 : Vec Ideal S512x128 .bf16) (x2 : Vec Ideal S512x2048 .bf16)
    (x4 : Vec Ideal S4x512x1024 .bf16) (x5 : Vec Ideal S4x512x128 .bf16) (x6 : Vec Ideal S4x512x2048 .bf16)
    (x7 : Vec Ideal S4x512 .f32) (x3 : Vec Ideal S512x512 .f32) (y : S512x512.Idx) :
    out0_8 (F := Ideal) x0 x1 x2 x3 x4 x5 x6 x7 y
      = mixH (gateAt x0 x1 x2 x4 x5 x6 x7 2 (y 0) (y 1))
          (mixC (gateAt x0 x1 x2 x4 x5 x6 x7 0 (y 0) (y 1)) (gateAt x0 x1 x2 x4 x5 x6 x7 1 (y 0) (y 1))
            (gateAt x0 x1 x2 x4 x5 x6 x7 3 (y 0) (y 1)) (x3 y)) := by
  obtain ⟨r, c, rfl⟩ : ∃ (r c : Fin 512), y = ix2 r c := ⟨y 0, y 1, eq_ix2 y⟩
  exact blockH_apply x0 x1 x2 x4 x5 x6 x7 x3 r c

end Cert.KernelIdeal.CellBlock

end
-- ==== Proof.KernelArray.lean ====
/-
  The kernel's two result arrays after the run are the cell step of the argument arrays.

  The grid is 8 × 4: point `(p, q)` takes rows `512p … 512p+511` of the three activation arrays (all their
  columns), units `512q … 512q+511` of the three weight arrays and of the summed bias (all four gates), and block
  `(p, q)` of the previous cell state, and writes block `(p, q)` of each result. Before the region the host only
  changes float formats (the identity on extended reals) and sums the three biases. So entry `(r, c')` of what
  point `(p, q)` writes is the cell step at `(512p + r, 512q + c')`, and the 32 blocks tile each result array.
-/
import proofs.«143592_j38689065402499_1_alg».proof.Proof.Gen.KernelIdeal.Value
import proofs.«143592_j38689065402499_1_alg».proof.Proof.GateBlock
import Idealize.ShloMosaic.Lib.Pipeline.Value
import Idealize.ShloMosaic.Lib.StableHlo.Run

noncomputable section

namespace Cert.KernelIdeal.CellArray

open Cert.KernelIdeal Cert.KernelIdeal.Gen Cert.KernelIdeal.CellBlock Cert.TreeCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the region finds in the arrays the host wrote -/

/-- The word activations in the narrower format are the word activations. -/
theorem V_word (c : Dev nD) : (V m c main_v2 : S4096x1024.Idx → EReal) = m ((c : Thread nD τ).loc main_arg0) := by
  dsimp only [Gen.V, Gen.hostOps0]; after_results; rfl

/-- Likewise the tag activations, -/
theorem V_tag (c : Dev nD) : (V m c main_v3 : S4096x128.Idx → EReal) = m ((c : Thread nD τ).loc main_arg1) := by
  dsimp only [Gen.V, Gen.hostOps0]; after_results; rfl

/-- the previous hidden state, -/
theorem V_hid (c : Dev nD) : (V m c main_v4 : S4096x2048.Idx → EReal) = m ((c : Thread nD τ).loc main_arg2) := by
  dsimp only [Gen.V, Gen.hostOps0]; after_results; rfl

/-- the word weights, -/
theorem V_Ww (c : Dev nD) : (V m c main_v5 : S4x2048x1024.Idx → EReal) = m ((c : Thread nD τ).loc main_arg4) := by
  dsimp only [Gen.V, Gen.hostOps0]; after_results; rfl

/-- the tag weights, -/
theorem V_Wt (c : Dev nD) : (V m c main_v6 : S4x2048x128.Idx → EReal) = m ((c : Thread nD τ).loc main_arg6) := by
  dsimp only [Gen.V, Gen.hostOps0]; after_results; rfl

/-- and the hidden weights. -/
theorem V_Wh (c : Dev nD) : (V m c main_v7 : S4x2048x2048.Idx → EReal) = m ((c : Thread nD τ).loc main_arg8) := by
  dsimp only [Gen.V, Gen.hostOps0]; after_results; rfl

/-- The three bias arrays of a core, as arrays of extended reals. -/
abbrev bwOf (c : Dev nD) : Arr2 4 2048 := m ((c : Thread nD τ).loc main_arg5)
abbrev btOf (c : Dev nD) : Arr2 4 2048 := m ((c : Thread nD τ).loc main_arg7)
abbrev bhOf (c : Dev nD) : Arr2 4 2048 := m ((c : Thread nD τ).loc main_arg9)

/-- The bias array the region reads is the three biases summed left to right. -/
theorem V_bias (c : Dev nD) : (V m c main_v1 : S4x2048.Idx → EReal)
    = fun i => (bwOf m c i + btOf m c i) + bhOf m c i := by
  dsimp only [Gen.V, Gen.hostOps0]; after_results; rfl

/-! ## The index maps, decided over the 32 grid points -/

/-- The row-blocked windows (the three activations) move with the output's row block and stay at column block 0. -/
theorem rows_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0 ∧ True :=
  (by decide +kernel : ∀ t : Fin grid0.N, _)

/-- The unit-blocked windows (the three weights, the bias) move with the output's column block only. -/
theorem cols_facts : ∀ t : Fin cfg0.N,
    (win0_4.index t (0 : Fin 3) = 0 ∧ win0_4.index t (1 : Fin 3) = win0_9.index t (1 : Fin 2) ∧ win0_4.index t (2 : Fin 3) = 0)
    ∧ (win0_5.index t (0 : Fin 3) = 0 ∧ win0_5.index t (1 : Fin 3) = win0_9.index t (1 : Fin 2) ∧ win0_5.index t (2 : Fin 3) = 0)
    ∧ (win0_6.index t (0 : Fin 3) = 0 ∧ win0_6.index t (1 : Fin 3) = win0_9.index t (1 : Fin 2) ∧ win0_6.index t (2 : Fin 3) = 0)
    ∧ (win0_7.index t (0 : Fin 2) = 0 ∧ win0_7.index t (1 : Fin 2) = win0_9.index t (1 : Fin 2)) :=
  (by decide +kernel : ∀ t : Fin grid0.N, _)

/-- The previous cell state's window and the two outputs' windows sit on the same block. -/
theorem out_facts : ∀ t : Fin cfg0.N,
    (win0_3.index t (0 : Fin 2) = win0_9.index t (0 : Fin 2) ∧ win0_3.index t (1 : Fin 2) = win0_9.index t (1 : Fin 2))
    ∧ (win0_8.index t (0 : Fin 2) = win0_9.index t (0 : Fin 2) ∧ win0_8.index t (1 : Fin 2) = win0_9.index t (1 : Fin 2))
    ∧ (win0_9.index t (0 : Fin 2) = win0_9.index t (0 : Fin 2) ∧ win0_9.index t (1 : Fin 2) = win0_9.index t (1 : Fin 2)) :=
  (by decide +kernel : ∀ t : Fin grid0.N, _)

/-- The output's block indices stay inside the 8 × 4 grid of blocks. -/
theorem range_facts : ∀ t : Fin cfg0.N, win0_9.index t (0 : Fin 2) ≤ 7 ∧ win0_9.index t (1 : Fin 2) ≤ 3 :=
  (by decide +kernel : ∀ t : Fin grid0.N, _)

/-- Every block of the 8 × 4 grid of blocks is some point's. -/
theorem onto_grid : ∀ (q0 : Fin 8) (q1 : Fin 4), ∃ t : Fin cfg0.N, win0_9.index t = ![q0.val, q1.val] :=
  (by decide +kernel : ∀ (q0 : Fin 8) (q1 : Fin 4), ∃ t : Fin grid0.N, win0_9.index t = ![q0.val, q1.val])

/-! ## The input blocks at a point, read off the argument arrays -/

/-- Entry `(r, k)` of the word activations's block at a point is entry `(b, k)` of the array, `b` the block's first row plus `r`. -/
theorem word_blk (c : Dev nD) (t : Fin cfg0.N) (r : Fin 512) (k : Fin 1024) (b : Fin 4096)
    (hb : b.val = win0_9.index t (0 : Fin 2) * 512 + r.val) :
    (iblk m c 0 t : FVec Ideal S512x1024 .bf16) (ix2 r k) = m ((c : Thread nD τ).loc main_arg0) (ix2 b k) := by
  have e0 : win0_0.index t (0 : Fin 2) = win0_9.index t (0 : Fin 2) := (rows_facts t).1
  have e1 : win0_0.index t (1 : Fin 2) = 0 := (rows_facts t).2.1
  show V m c main_v2 (((cfg0.win 0).blk t).view.emb (ix2 r k)) = _
  rw [V_word]
  refine congrArg (m ((c : Thread nD τ).loc main_arg0)) (funext fun a => Fin.ext ?_)
  match a with
  | ⟨0, _⟩ => show win0_0.index t (0 : Fin 2) * 512 + 1 * r.val = b.val; omega
  | ⟨1, _⟩ => show win0_0.index t (1 : Fin 2) * 1024 + 1 * k.val = k.val; omega

/-- Entry `(r, k)` of the tag activations's block at a point is entry `(b, k)` of the array, `b` the block's first row plus `r`. -/
theorem tag_blk (c : Dev nD) (t : Fin cfg0.N) (r : Fin 512) (k : Fin 128) (b : Fin 4096)
    (hb : b.val = win0_9.index t (0 : Fin 2) * 512 + r.val) :
    (iblk m c 1 t : FVec Ideal S512x128 .bf16) (ix2 r k) = m ((c : Thread nD τ).loc main_arg1) (ix2 b k) := by
  have e0 : win0_1.index t (0 : Fin 2) = win0_9.index t (0 : Fin 2) := (rows_facts t).2.2.1
  have e1 : win0_1.index t (1 : Fin 2) = 0 := (rows_facts t).2.2.2.1
  show V m c main_v3 (((cfg0.win 1).blk t).view.emb (ix2 r k)) = _
  rw [V_tag]
  refine congrArg (m ((c : Thread nD τ).loc main_arg1)) (funext fun a => Fin.ext ?_)
  match a with
  | ⟨0, _⟩ => show win0_1.index t (0 : Fin 2) * 512 + 1 * r.val = b.val; omega
  | ⟨1, _⟩ => show win0_1.index t (1 : Fin 2) * 128 + 1 * k.val = k.val; omega

/-- Entry `(r, k)` of the previous hidden state's block at a point is entry `(b, k)` of the array, `b` the block's first row plus `r`. -/
theorem hid_blk (c : Dev nD) (t : Fin cfg0.N) (r : Fin 512) (k : Fin 2048) (b : Fin 4096)
    (hb : b.val = win0_9.index t (0 : Fin 2) * 512 + r.val) :
    (iblk m c 2 t : FVec Ideal S512x2048 .bf16) (ix2 r k) = m ((c : Thread nD τ).loc main_arg2) (ix2 b k) := by
  have e0 : win0_2.index t (0 : Fin 2) = win0_9.index t (0 : Fin 2) := (rows_facts t).2.2.2.2.1
  have e1 : win0_2.index t (1 : Fin 2) = 0 := (rows_facts t).2.2.2.2.2.1
  show V m c main_v4 (((cfg0.win 2).blk t).view.emb (ix2 r k)) = _
  rw [V_hid]
  refine congrArg (m ((c : Thread nD τ).loc main_arg2)) (funext fun a => Fin.ext ?_)
  match a with
  | ⟨0, _⟩ => show win0_2.index t (0 : Fin 2) * 512 + 1 * r.val = b.val; omega
  | ⟨1, _⟩ => show win0_2.index t (1 : Fin 2) * 2048 + 1 * k.val = k.val; omega

/-- Entry `(g, c', k)` of the word weights's block at a point is entry `(g, n, k)` of the array, `n` the block's first unit plus `c'`. -/
theorem Ww_blk (c : Dev nD) (t : Fin cfg0.N) (g : Fin 4) (c' : Fin 512) (k : Fin 1024) (n : Fin 2048)
    (hn : n.val = win0_9.index t (1 : Fin 2) * 512 + c'.val) :
    (iblk m c 4 t : FVec Ideal S4x512x1024 .bf16) (ix3 g c' k) = m ((c : Thread nD τ).loc main_arg4) (ix3 g n k) := by
  obtain ⟨e0, e1, e2⟩ := (cols_facts t).1
  show V m c main_v5 (((cfg0.win 4).blk t).view.emb (ix3 g c' k)) = _
  rw [V_Ww]
  refine congrArg (m ((c : Thread nD τ).loc main_arg4)) (funext fun a => Fin.ext ?_)
  match a with
  | ⟨0, _⟩ => show win0_4.index t (0 : Fin 3) * 4 + 1 * g.val = g.val; omega
  | ⟨1, _⟩ => show win0_4.index t (1 : Fin 3) * 512 + 1 * c'.val = n.val; omega
  | ⟨2, _⟩ => show win0_4.index t (2 : Fin 3) * 1024 + 1 * k.val = k.val; omega

/-- Entry `(g, c', k)` of the tag weights's block at a point is entry `(g, n, k)` of the array, `n` the block's first unit plus `c'`. -/
theorem Wt_blk (c : Dev nD) (t : Fin cfg0.N) (g : Fin 4) (c' : Fin 512) (k : Fin 128) (n : Fin 2048)
    (hn : n.val = win0_9.index t (1 : Fin 2) * 512 + c'.val) :
    (iblk m c 5 t : FVec Ideal S4x512x128 .bf16) (ix3 g c' k) = m ((c : Thread nD τ).loc main_arg6) (ix3 g n k) := by
  obtain ⟨e0, e1, e2⟩ := (cols_facts t).2.1
  show V m c main_v6 (((cfg0.win 5).blk t).view.emb (ix3 g c' k)) = _
  rw [V_Wt]
  refine congrArg (m ((c : Thread nD τ).loc main_arg6)) (funext fun a => Fin.ext ?_)
  match a with
  | ⟨0, _⟩ => show win0_5.index t (0 : Fin 3) * 4 + 1 * g.val = g.val; omega
  | ⟨1, _⟩ => show win0_5.index t (1 : Fin 3) * 512 + 1 * c'.val = n.val; omega
  | ⟨2, _⟩ => show win0_5.index t (2 : Fin 3) * 128 + 1 * k.val = k.val; omega

/-- Entry `(g, c', k)` of the hidden weights's block at a point is entry `(g, n, k)` of the array, `n` the block's first unit plus `c'`. -/
theorem Wh_blk (c : Dev nD) (t : Fin cfg0.N) (g : Fin 4) (c' : Fin 512) (k : Fin 2048) (n : Fin 2048)
    (hn : n.val = win0_9.index t (1 : Fin 2) * 512 + c'.val) :
    (iblk m c 6 t : FVec Ideal S4x512x2048 .bf16) (ix3 g c' k) = m ((c : Thread nD τ).loc main_arg8) (ix3 g n k) := by
  obtain ⟨e0, e1, e2⟩ := (cols_facts t).2.2.1
  show V m c main_v7 (((cfg0.win 6).blk t).view.emb (ix3 g c' k)) = _
  rw [V_Wh]
  refine congrArg (m ((c : Thread nD τ).loc main_arg8)) (funext fun a => Fin.ext ?_)
  match a with
  | ⟨0, _⟩ => show win0_6.index t (0 : Fin 3) * 4 + 1 * g.val = g.val; omega
  | ⟨1, _⟩ => show win0_6.index t (1 : Fin 3) * 512 + 1 * c'.val = n.val; omega
  | ⟨2, _⟩ => show win0_6.index t (2 : Fin 3) * 2048 + 1 * k.val = k.val; omega

/-- Entry `(g, c')` of the bias block at a point is the three biases at `(g, n)`, summed left to right. -/
theorem bias_blk (c : Dev nD) (t : Fin cfg0.N) (g : Fin 4) (c' : Fin 512) (n : Fin 2048)
    (hn : n.val = win0_9.index t (1 : Fin 2) * 512 + c'.val) :
    (iblk m c 7 t : FVec Ideal S4x512 .f32) (ix2 g c')
      = (bwOf m c (ix2 g n) + btOf m c (ix2 g n)) + bhOf m c (ix2 g n) := by
  obtain ⟨e0, e1⟩ := (cols_facts t).2.2.2
  show V m c main_v1 (((cfg0.win 7).blk t).view.emb (ix2 g c')) = _
  rw [V_bias]
  have hi : ((cfg0.win 7).blk t).view.emb (ix2 g c') = ix2 g n := by
    funext a
    apply Fin.ext
    match a with
    | ⟨0, _⟩ => show win0_7.index t (0 : Fin 2) * 4 + 1 * g.val = g.val; omega
    | ⟨1, _⟩ => show win0_7.index t (1 : Fin 2) * 512 + 1 * c'.val = n.val; omega
  rw [hi]

/-- Entry `y` of the previous cell state's block at a point. -/
theorem cprev_blk (c : Dev nD) (t : Fin cfg0.N) (y : S512x512.Idx) (b : Fin 4096) (n : Fin 2048)
    (hb : b.val = win0_9.index t (0 : Fin 2) * 512 + (y 0).val) (hn : n.val = win0_9.index t (1 : Fin 2) * 512 + (y 1).val) :
    (iblk m c 3 t : FVec Ideal S512x512 .f32) y = m ((c : Thread nD τ).loc main_arg3) (ix2 b n) := by
  obtain ⟨e0, e1⟩ := (out_facts t).1
  show V m c main_arg3 (((cfg0.win 3).blk t).view.emb y) = _
  rw [V_main_arg3]
  refine congrArg (m ((c : Thread nD τ).loc main_arg3)) (funext fun a => Fin.ext ?_)
  match a with
  | ⟨0, _⟩ => show win0_3.index t (0 : Fin 2) * 512 + 1 * (y 0).val = b.val; omega
  | ⟨1, _⟩ => show win0_3.index t (1 : Fin 2) * 512 + 1 * (y 1).val = n.val; omega

/-- A gate's pre-activation at `(r, c')` of a point is the cell step's at `(b, n)`, `b` and `n` the point's first row
    and first unit plus `r` and `c'`. -/
theorem gate_blk (c : Dev nD) (t : Fin cfg0.N) (g : Fin 4) (r c' : Fin 512) (b : Fin 4096) (n : Fin 2048)
    (hb : b.val = win0_9.index t (0 : Fin 2) * 512 + r.val) (hn : n.val = win0_9.index t (1 : Fin 2) * 512 + c'.val) :
    gateAt (iblk m c 0 t) (iblk m c 1 t) (iblk m c 2 t) (iblk m c 4 t) (iblk m c 5 t) (iblk m c 6 t) (iblk m c 7 t) g r c' = gate (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) g b n := by
  unfold gateAt gate
  refine congrArg₂ (· + ·) (congrArg₂ (· + ·) (congrArg₂ (· + ·) ?_ ?_) ?_) (bias_blk m c t g c' n hn)
  · exact Finset.sum_congr rfl fun k _ => congrArg₂ (· * ·) (word_blk m c t r k b hb) (Ww_blk m c t g c' k n hn)
  · exact Finset.sum_congr rfl fun k _ => congrArg₂ (· * ·) (tag_blk m c t r k b hb) (Wt_blk m c t g c' k n hn)
  · exact Finset.sum_congr rfl fun k _ => congrArg₂ (· * ·) (hid_blk m c t r k b hb) (Wh_blk m c t g c' k n hn)

/-! ## From blocks to the two arrays -/

/-- What a point writes back to the cell-state array is its block of the cell step of the argument arrays. -/
theorem flushedC_eq (c : Dev nD) (t : Fin cfg0.N) :
    (dats m 0 c).flushed 9 t = ((cfg0.win 9).blk t).view.read (Elt Ideal) (arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed9]
  funext y
  have hy0 : (y 0).val < 512 := (y 0).isLt
  have hy1 : (y 1).val < 512 := (y 1).isLt
  obtain ⟨p7, q3⟩ := range_facts t
  obtain ⟨o0, o1⟩ := (out_facts t).2.2
  have hb : (⟨win0_9.index t (0 : Fin 2) * 512 + (y 0).val, by omega⟩ : Fin 4096).val
      = win0_9.index t (0 : Fin 2) * 512 + (y 0).val := rfl
  have hn : (⟨win0_9.index t (1 : Fin 2) * 512 + (y 1).val, by omega⟩ : Fin 2048).val
      = win0_9.index t (1 : Fin 2) * 512 + (y 1).val := rfl
  have hi : ((cfg0.win 9).blk t).view.emb y
      = ix2 (⟨win0_9.index t (0 : Fin 2) * 512 + (y 0).val, by omega⟩ : Fin 4096)
          (⟨win0_9.index t (1 : Fin 2) * 512 + (y 1).val, by omega⟩ : Fin 2048) := by
    funext a
    apply Fin.ext
    match a with
    | ⟨0, _⟩ => show win0_9.index t (0 : Fin 2) * 512 + 1 * (y 0).val = win0_9.index t (0 : Fin 2) * 512 + (y 0).val; omega
    | ⟨1, _⟩ => show win0_9.index t (1 : Fin 2) * 512 + 1 * (y 1).val = win0_9.index t (1 : Fin 2) * 512 + (y 1).val; omega
  show out0_9 (iblk m c 0 t) (iblk m c 1 t) (iblk m c 2 t) (iblk m c 3 t) (iblk m c 4 t) (iblk m c 5 t) (iblk m c 6 t) (iblk m c 7 t) y
    = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 9).blk t).view.emb y)
  rw [hi]
  refine (blockC_at (iblk m c 0 t) (iblk m c 1 t) (iblk m c 2 t) (iblk m c 4 t) (iblk m c 5 t) (iblk m c 6 t) (iblk m c 7 t)
    (iblk m c 3 t) y).trans ?_
  rw [gate_blk m c t 0 (y 0) (y 1) _ _ hb hn, gate_blk m c t 1 (y 0) (y 1) _ _ hb hn,
    gate_blk m c t 3 (y 0) (y 1) _ _ hb hn, cprev_blk m c t y _ _ hb hn]
  rfl

/-- What a point writes back to the hidden-state array is its block of the cell step of the argument arrays. -/
theorem flushedH_eq (c : Dev nD) (t : Fin cfg0.N) :
    (dats m 0 c).flushed 8 t = ((cfg0.win 8).blk t).view.read (Elt Ideal) (arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed8]
  funext y
  have hy0 : (y 0).val < 512 := (y 0).isLt
  have hy1 : (y 1).val < 512 := (y 1).isLt
  obtain ⟨p7, q3⟩ := range_facts t
  obtain ⟨o0, o1⟩ := (out_facts t).2.1
  have hb : (⟨win0_9.index t (0 : Fin 2) * 512 + (y 0).val, by omega⟩ : Fin 4096).val
      = win0_9.index t (0 : Fin 2) * 512 + (y 0).val := rfl
  have hn : (⟨win0_9.index t (1 : Fin 2) * 512 + (y 1).val, by omega⟩ : Fin 2048).val
      = win0_9.index t (1 : Fin 2) * 512 + (y 1).val := rfl
  have hi : ((cfg0.win 8).blk t).view.emb y
      = ix2 (⟨win0_9.index t (0 : Fin 2) * 512 + (y 0).val, by omega⟩ : Fin 4096)
          (⟨win0_9.index t (1 : Fin 2) * 512 + (y 1).val, by omega⟩ : Fin 2048) := by
    funext a
    apply Fin.ext
    match a with
    | ⟨0, _⟩ => show win0_8.index t (0 : Fin 2) * 512 + 1 * (y 0).val = win0_9.index t (0 : Fin 2) * 512 + (y 0).val; omega
    | ⟨1, _⟩ => show win0_8.index t (1 : Fin 2) * 512 + 1 * (y 1).val = win0_9.index t (1 : Fin 2) * 512 + (y 1).val; omega
  show out0_8 (iblk m c 0 t) (iblk m c 1 t) (iblk m c 2 t) (iblk m c 3 t) (iblk m c 4 t) (iblk m c 5 t) (iblk m c 6 t) (iblk m c 7 t) y
    = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 8).blk t).view.emb y)
  rw [hi]
  refine (blockH_at (iblk m c 0 t) (iblk m c 1 t) (iblk m c 2 t) (iblk m c 4 t) (iblk m c 5 t) (iblk m c 6 t) (iblk m c 7 t)
    (iblk m c 3 t) y).trans ?_
  rw [gate_blk m c t 0 (y 0) (y 1) _ _ hb hn, gate_blk m c t 1 (y 0) (y 1) _ _ hb hn,
    gate_blk m c t 2 (y 0) (y 1) _ _ hb hn,
    gate_blk m c t 3 (y 0) (y 1) _ _ hb hn, cprev_blk m c t y _ _ hb hn]
  rfl

/-- An entry of the array is in a point's block iff each coordinate is in the block's range. -/
theorem mem_blk9 (t : Fin cfg0.N) (i : S4096x2048.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v8_1).slice (win0_9.rect t)).set ↔ _
  rw [View.set_slice_whole, Rect.mem_set_unit]
  exact Iff.rfl

/-- Every entry is in some point's block: the point whose block indices are the entry's coordinates divided by 512. -/
theorem cover9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ := onto_grid ⟨(i 0).val / 512, by omega⟩ ⟨(i 1).val / 512, by omega⟩
  obtain ⟨o0, o1⟩ := (out_facts t).2.2
  have q0 : win0_9.index t (0 : Fin 2) = (i 0).val / 512 := congrFun ht 0
  have q1 : win0_9.index t (1 : Fin 2) = (i 1).val / 512 := congrFun ht 1
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- An entry of the array is in a point's block iff each coordinate is in the block's range. -/
theorem mem_blk8 (t : Fin cfg0.N) (i : S4096x2048.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v8_0).slice (win0_8.rect t)).set ↔ _
  rw [View.set_slice_whole, Rect.mem_set_unit]
  exact Iff.rfl

/-- Every entry is in some point's block: the point whose block indices are the entry's coordinates divided by 512. -/
theorem cover8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := onto_grid ⟨(i 0).val / 512, by omega⟩ ⟨(i 1).val / 512, by omega⟩
  obtain ⟨o0, o1⟩ := (out_facts t).2.1
  have q0 : win0_9.index t (0 : Fin 2) = (i 0).val / 512 := congrFun ht 0
  have q1 : win0_9.index t (1 : Fin 2) = (i 1).val / 512 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

/-- The cell-state array after the run. -/
theorem finalC (c : Dev nD) : (dats m 0 c).arrAt 9 cfg0.N = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 9 (arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushedC_eq m c t) cover9

/-- The hidden-state array after the run. -/
theorem finalH (c : Dev nD) : (dats m 0 c).arrAt 8 cfg0.N = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 8 (arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushedH_eq m c t) cover8

/-- The kernel's run: both results at the cell step of the arguments, the arguments unchanged. -/
theorem run : θ_run defs (onTc (τ := τ) (main (F := Ideal))) ⟨m, fun _ => 0, ρ⟩ fun r => ∀ c : Dev nD,
      r.2.mem ((c : Thread nD τ).loc main_v8_0) = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v8_1) = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (finalH m c), (h c).2.1.trans (finalC m c), (h c).2.2⟩)
    (Value.run_blocks m ρ)

end Cert.KernelIdeal.CellArray

end
-- ==== Proof.lean ====
/-
  One step of a tree-LSTM cell: a fused kernel against its array-language reference, over the extended reals.

  Both programs compute, for every batch row `b` and memory unit `n`, the four gate pre-activations
      z g = ((word[b,·]·Ww[g,n,·] + tag[b,·]·Wt[g,n,·]) + hprev[b,·]·Wh[g,n,·]) + ((bw + bt) + bh)[g,n],
  the new cell state  c = σ(z 0)·tanh(z 3) + σ(z 1)·cprev[b,n]  and the new hidden state  h = σ(z 2)·tanh(c).
  The kernel tiles the batch and the memory units into 8 × 4 blocks of 512 × 512 and forms each gate from three
  block products; the reference forms all four gates at once as stacked products, transposes them, and slices
  the stack. The two agree term by term: the sums are grouped the same way, the reference's logistic function
  `1 / (1 + exp (-z))` is the kernel's, a change of float format is the identity on extended reals, and the only
  law used is commutativity of the product (the reference multiplies weight by activation, the kernel
  activation by weight). Nothing needs the inputs to be finite.

  `CellSpec` states the cell step; `RefCell` shows the reference's two results are it; `BlockProducts` and
  `GateBlock` read one grid point's two stored blocks entry by entry; `KernelArray` identifies the point's
  blocks with the argument arrays and assembles the 32 blocks into the two result arrays.
-/
import proofs.«143592_j38689065402499_1_alg».proof.Defs
import proofs.«143592_j38689065402499_1_alg».proof.Proof.Gen.Kernel
import proofs.«143592_j38689065402499_1_alg».proof.Proof.Gen.Kernel.Skeleton
import proofs.«143592_j38689065402499_1_alg».proof.Proof.Gen.Kernel.Launch
import proofs.«143592_j38689065402499_1_alg».proof.Proof.Gen.Kernel.Points
import proofs.«143592_j38689065402499_1_alg».proof.Proof.Gen.Kernel.Frame
import proofs.«143592_j38689065402499_1_alg».proof.Proof.Gen.KernelIdeal
import proofs.«143592_j38689065402499_1_alg».proof.Proof.Gen.KernelIdeal.Skeleton
import proofs.«143592_j38689065402499_1_alg».proof.Proof.Gen.KernelIdeal.Launch
import proofs.«143592_j38689065402499_1_alg».proof.Proof.Gen.KernelIdeal.Points
import proofs.«143592_j38689065402499_1_alg».proof.Proof.Gen.KernelIdeal.Frame
import proofs.«143592_j38689065402499_1_alg».proof.Proof.Gen.ReferenceIdeal
import proofs.«143592_j38689065402499_1_alg».proof.Proof.Gen.Pre_finite_inputs
import proofs.«143592_j38689065402499_1_alg».proof.Proof.Gen.KernelIdeal.Value
import proofs.«143592_j38689065402499_1_alg».proof.Proof.Gen.ReferenceIdeal.Run
import proofs.«143592_j38689065402499_1_alg».proof.Proof.Gen.ReferenceIdeal.Read
import proofs.«143592_j38689065402499_1_alg».proof.Proof.RefCell
import proofs.«143592_j38689065402499_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the cell step of the (shared) arguments. -/
theorem algebraic : Cert.algebraic_KernelIdeal_ReferenceIdeal := by
  intro m ρ m' ρ' _ hagree
  refine ⟨fun c => Cert.TreeCell.arrH
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => Cert.TreeCell.arrC
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.CellArray.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9⟩ := hagree c
  refine ⟨?_, ?_, (h c).2.2⟩
  · refine ((h c).1.trans (Cert.ReferenceIdeal.Read.val_main_v44_eq m' c)).trans ?_
    rw [Cert.ReferenceIdeal.CellValue.hidden_eq, a0, a1, a2, a3, a4, a5, a6, a7, a8, a9]
  · refine ((h c).2.1.trans (Cert.ReferenceIdeal.Read.val_main_v42_eq _ _ _ _ _ _ _ _ _ _)).trans ?_
    rw [Cert.ReferenceIdeal.CellValue.cell_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
